-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x512 : Shape := ⟨3, ![512, 256, 512]⟩
abbrev S512x512 : Shape := ⟨2, ![512, 512]⟩
abbrev S_ : Shape := ⟨0, ![]⟩

class Facts : Prop where
  bcast_S_S512x256x512 : S_.BroadcastsInDim S512x256x512 (![] : Fin 0 → Fin S512x256x512.rank)
  reducesTo_S512x256x512_S_d0_1_2 : S512x256x512.ReducesTo [0, 1, 2] S_
  h_S_ : 0 < S_.numel

variable [Facts]

def fn {F : FTy → Type} [FloatOps F] (main_arg0 : FVec F S512x256x512 .f32) (main_arg1 : IVec S512x512 32) : IVec S_ 1 :=
  let main_v0 : FVec F S512x256x512 .f32 := Host.absf main_arg0
  let main_cst : FVec F S_ .f32 := constant S_ .f32 0x7F800000#32
  let main_v1 : FVec F S512x256x512 .f32 := broadcastInDim S512x256x512 ![] bcast_S_S512x256x512 main_cst
  let main_v2 : IVec S512x256x512 1 := cmpf .olt main_v0 main_v1
  let main_c : IVec S_ 1 := constantI S_ 1 1#1
  let main_v3 : IVec S_ 1 := (fun x v => Host.reduce IntOp.andi x v reducesTo_S512x256x512_S_d0_1_2 h_S_) main_v2 main_c
  main_v3
-- ==== Kernel.lean ====
abbrev S512x256x512 : Shape := ⟨3, ![512, 256, 512]⟩
abbrev S512x512 : Shape := ⟨2, ![512, 512]⟩
abbrev S512x768 : Shape := ⟨2, ![512, 768]⟩
abbrev S32x256x512 : Shape := ⟨3, ![32, 256, 512]⟩
abbrev S32x512 : Shape := ⟨2, ![32, 512]⟩
abbrev S32x768 : Shape := ⟨2, ![32, 768]⟩
abbrev S32x3x512 : Shape := ⟨3, ![32, 3, 512]⟩
abbrev S32x1x512 : Shape := ⟨3, ![32, 1, 512]⟩
abbrev S32x3 : Shape := ⟨2, ![32, 3]⟩
abbrev S32x3x1 : Shape := ⟨3, ![32, 3, 1]⟩
abbrev S32x3x256 : Shape := ⟨3, ![32, 3, 256]⟩
abbrev S32x1x256 : Shape := ⟨3, ![32, 1, 256]⟩
abbrev S32x256 : Shape := ⟨2, ![32, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x256x512, .f32⟩
  | .hbm, ⟨1, _⟩ => ⟨S512x512, .i32⟩
  | .hbm, ⟨2, _⟩ => ⟨S512x768, .f32⟩
  | .local _ .vmem, ⟨0, _⟩ => ⟨S32x256x512, .f32⟩
  | .local _ .vmem, ⟨1, _⟩ => ⟨S32x256x512, .f32⟩
  | .local _ .vmem, ⟨2, _⟩ => ⟨S32x512, .i32⟩
  | .local _ .vmem, ⟨3, _⟩ => ⟨S32x512, .i32⟩
  | .local _ .vmem, ⟨4, _⟩ => ⟨S32x768, .f32⟩
  | .local _ .vmem, ⟨5, _⟩ => ⟨S32x768, .f32⟩
  | _, _ => ⟨S512x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S32x512_S32x512_0_0 : ∀ a, (![0, 0] : Fin 2 → Nat) a + S32x512.size a ≤ S32x512.size a
  h_S32x512 : 0 < S32x512.numel
  inb_S32x256x512_S32x256x512_0_0_0 : ∀ a, (![0, 0, 0] : Fin 3 → Nat) a + S32x256x512.size a ≤ S32x256x512.size a
  h_S32x256x512 : 0 < S32x256x512.numel
  iota_S32x3x512_d1_w32 : S32x3x512.Iotas .tc 32 [1]
  shapeCasts_S32x512_S32x1x512 : S32x512.ShapeCasts S32x1x512
  broadcasts_S32x1x512_S32x3x512 : S32x1x512.Broadcasts S32x3x512
  natLt_1_32 : 1 < 32
  reduces_S32x3x512_S32x3 : S32x3x512.Reduces [2] S32x3
  shapeCasts_S32x3_S32x3x1 : S32x3.ShapeCasts S32x3x1
  bitsLt_bf16_f32 : FTy.bits .bf16 < FTy.bits .f32
  broadcasts_S32x3x1_S32x3x256 : S32x3x1.Broadcasts S32x3x256
  slices_S32x3x256_o0_0_0_S32x1x256 : S32x3x256.Slices ![0, 0, 0] S32x1x256
  shapeCasts_S32x1x256_S32x256 : S32x1x256.ShapeCasts S32x256
  inb_S32x768_S32x256_0_0 : ∀ a, (![0, 0] : Fin 2 → Nat) a + S32x256.size a ≤ S32x768.size a
  h_S32x256 : 0 < S32x256.numel
  slices_S32x3x256_o0_1_0_S32x1x256 : S32x3x256.Slices ![0, 1, 0] S32x1x256
  inb_S32x768_S32x256_0_256 : ∀ a, (![0, 256] : Fin 2 → Nat) a + S32x256.size a ≤ S32x768.size a
  slices_S32x3x256_o0_2_0_S32x1x256 : S32x3x256.Slices ![0, 2, 0] S32x1x256
  inb_S32x768_S32x256_0_512 : ∀ a, (![0, 512] : Fin 2 → Nat) a + S32x256.size a ≤ S32x768.size a
  dot_S32x3x512_S32x256x512_S32x3x256_2_2_1_1_0_0_wf : DotDims.WF S32x3x512 S32x256x512 S32x3x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x512.size a ≤ S512x256x512.size a
  hwx0_0 : ∀ i : grid0.Coords, EltTy.bits .f32 = 32 ∨ (Rect.block (s := S512x256x512) S32x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S512x512.size a
  hwx0_1 : ∀ i : grid0.Coords, EltTy.bits .i32 = 32 ∨ (Rect.block (s := S512x512) S32x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x768.size a ≤ S512x768.size a
  hwx0_2 : ∀ i : grid0.Coords, EltTy.bits .f32 = 32 ∨ (Rect.block (s := S512x768) S32x768.size (cc0_transform_2 i) (hinb0_2 i)).WholeWords (EltTy.packing .f32)

variable [Facts₀]

def dot_S32x3x512_S32x256x512_S32x3x256_2_2_1_1_0_0 : DotDims S32x3x512 S32x256x512 S32x3x256 where
  lhsContracting := [2]
  rhsContracting := [2]
  lhsNonContracting := [1]
  rhsNonContracting := [1]
  lhsBatch := [0]
  rhsBatch := [0]
  wf := dot_S32x3x512_S32x256x512_S32x3x256_2_2_1_1_0_0_wf

abbrev win0_0 : Pipeline.Window sig grid0 :=
  Pipeline.Window.ofSpec (Memref.whole main_arg0) S32x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x256x512 : Shape := ⟨3, ![512, 256, 512]⟩
abbrev S512x512 : Shape := ⟨2, ![512, 512]⟩
abbrev S512x1x512 : Shape := ⟨3, ![512, 1, 512]⟩
abbrev S3 : Shape := ⟨1, ![3]⟩
abbrev S_ : Shape := ⟨0, ![]⟩
abbrev S1x3x1 : Shape := ⟨3, ![1, 3, 1]⟩
abbrev S512x3x512 : Shape := ⟨3, ![512, 3, 512]⟩
abbrev S512x3 : Shape := ⟨2, ![512, 3]⟩
abbrev S512x3x1 : Shape := ⟨3, ![512, 3, 1]⟩
abbrev S512x3x256 : Shape := ⟨3, ![512, 3, 256]⟩
abbrev S512x768 : Shape := ⟨2, ![512, 768]⟩

abbrev nBuf : Space → Nat
  | .hbm => 25
  | .vmem => 0
  | .smem => 0
  | _ => 0

abbrev bufTy : (tb : Table) → Fin (tcTables nBuf tb) → BufTy
  | .hbm, ⟨0, _⟩ => ⟨S512x256x512, .f32⟩
  | .hbm, ⟨1, _⟩ => ⟨S512x512, .i32⟩
  | .hbm, ⟨2, _⟩ => ⟨S512x1x512, .i32⟩
  | .hbm, ⟨3, _⟩ => ⟨S3, .i32⟩
  | .hbm, ⟨4, _⟩ => ⟨S_, .i32⟩
  | .hbm, ⟨5, _⟩ => ⟨S3, .i32⟩
  | .hbm, ⟨6, _⟩ => ⟨S3, .i32⟩
  | .hbm, ⟨7, _⟩ => ⟨S1x3x1, .i32⟩
  | .hbm, ⟨8, _⟩ => ⟨S512x3x512, .i32⟩
  | .hbm, ⟨9, _⟩ => ⟨S512x3x512, .i32⟩
  | .hbm, ⟨10, _⟩ => ⟨S512x3x512, .i1⟩
  | .hbm, ⟨11, _⟩ => ⟨S512x3x512, .f32⟩
  | .hbm, ⟨12, _⟩ => ⟨S_, .f32⟩
  | .hbm, ⟨13, _⟩ => ⟨S512x3, .f32⟩
  | .hbm, ⟨14, _⟩ => ⟨S512x3x1, .f32⟩
  | .hbm, ⟨15, _⟩ => ⟨S_, .f32⟩
  | .hbm, ⟨16, _⟩ => ⟨S512x3x1, .f32⟩
  | .hbm, ⟨17, _⟩ => ⟨S512x3x1, .i1⟩
  | .hbm, ⟨18, _⟩ => ⟨S_, .f32⟩
  | .hbm, ⟨19, _⟩ => ⟨S512x3x1, .f32⟩
  | .hbm, ⟨20, _⟩ => ⟨S512x3x1, .f32⟩
  | .hbm, ⟨21, _⟩ => ⟨S512x3x256, .f32⟩
  | .hbm, ⟨22, _⟩ => ⟨S512x3x256, .f32⟩
  | .hbm, ⟨23, _⟩ => ⟨S512x3x256, .f32⟩
  | .hbm, ⟨24, _⟩ => ⟨S512x768, .f32⟩
  | _, _ => ⟨S512x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S512x512_S512x1x512_0_2 : S512x512.BroadcastsInDim S512x1x512 (![0, 2] : Fin 2 → Fin S512x1x512.rank)
  bcast_S_S3 : S_.BroadcastsInDim S3 (![] : Fin 0 → Fin S3.rank)
  bcast_S3_S1x3x1_1 : S3.BroadcastsInDim S1x3x1 (![1] : Fin 1 → Fin S1x3x1.rank)
  bcast_S512x1x512_S512x3x512_0_1_2 : S512x1x512.BroadcastsInDim S512x3x512 (![0, 1, 2] : Fin 3 → Fin S512x3x512.rank)
  bcast_S1x3x1_S512x3x512_0_1_2 : S1x3x1.BroadcastsInDim S512x3x512 (![0, 1, 2] : Fin 3 → Fin S512x3x512.rank)
  reducesTo_S512x3x512_S512x3_d2 : S512x3x512.ReducesTo [2] S512x3
  h_S_ : 0 < S_.numel
  bcast_S512x3_S512x3x1_0_1 : S512x3.BroadcastsInDim S512x3x1 (![0, 1] : Fin 2 → Fin S512x3x1.rank)
  bcast_S_S512x3x1 : S_.BroadcastsInDim S512x3x1 (![] : Fin 0 → Fin S512x3x1.rank)
  bcast_S512x3x1_S512x3x256_0_1_2 : S512x3x1.BroadcastsInDim S512x3x256 (![0, 1, 2] : Fin 3 → Fin S512x3x256.rank)
  shapeCasts_S512x3x256_S512x768 : S512x3x256.ShapeCasts S512x768
  dot_S512x3x512_S512x256x512_S512x3x256_2_2_1_1_0_0_wf : DotDims.WF S512x3x512 S512x256x512 S512x3x256 [2] [2] [1] [1] [0] [0]

variable [Facts₀]

def dot_S512x3x512_S512x256x512_S512x3x256_2_2_1_1_0_0 : DotDims S512x3x512 S512x256x512 S512x3x256 where
  lhsContracting := [2]
  rhsContracting := [2]
  lhsNonContracting := [1]
  rhsNonContracting := [1]
  lhsBatch := [0]
  rhsBatch := [0]
  wf := dot_S512x3x512_S512x256x512_S512x3x256_2_2_1_1_0_0_wf

class Facts : Prop extends Facts₀ where

variable [Facts]
-- ==== Proof.PiecePool.lean ====
/-
  Piecewise average pooling, as one function of the two argument arrays.

  The arguments are an array `x` of extended reals indexed by (row b, channel i, position l) with extents
  (512, 256, 512) and an integer array `mask` indexed by (row b, position l) with extents (512, 512); a mask word
  `k` in {1, 2, 3} puts the position in piece `k`, any other word in no piece. The result is indexed by
  (row b, column q) with extents (512, 768); column `q` belongs to piece `q / 256` (numbered from 0) and channel
  `q % 256`, and holds

      ( ∑ l, [mask b l = piece + 1] · x b i l )  /  pieceLen ( ∑ l, [mask b l = piece + 1] )

  where `[·]` is the indicator 0 / 1 and `pieceLen c` replaces an empty piece's count `c = 0` by a fixed small
  constant.
  Everything a row's entries depend on is that row of `mask` and that row's slab of `x`, so the definitions below are
  stated for one row: `member`, `pieceCount`, `pieceLen`, `pieceAvg`; `pooled` reads them at the row, piece and channel of a
  result index. The indicator is kept as the conversion of a one-bit comparison, the form both programs compute it
  in; its two spellings (the bit widened to a word and read signed; the bit read unsigned) are one number.
-/
import Idealize.ShloMosaic.PureOps.Ideal
import Idealize.ShloMosaic.PureOps.Ideal.Laws
import Idealize.ShloMosaic.Lib.ValueIdx

noncomputable section

namespace Cert.PiecePool

open Idealize.ShloMosaic Idealize.ShloMosaic.ValueIdx

/-- The indicator that a position whose mask word is `w` lies in piece `p` (pieces numbered from 0; the mask
    numbers them from 1): the comparison's bit, read as the number 0 or 1. -/
def member (w : BitVec 32) (p : Fin 3) : Ideal .f32 :=
  FloatOps.uitofp (F := Ideal) .f32 (IntOp.cmpi .eq w (IntOp.addi 1#32 (BitVec.ofNat 32 p.val)))

/-- A bit widened to a 32-bit word by zeros and read as a signed integer is the bit read as an unsigned one:
    both are 0 or 1. -/
theorem signed_widened_bit (c : BitVec 1) :
    FloatOps.sitofp (F := Ideal) .f32 (c.setWidth 32) = FloatOps.uitofp (F := Ideal) .f32 c := by
  have h : (c.setWidth 32).toInt = (c.toNat : Int) := by
    rcases BitVec.eq_zero_or_eq_one c with h | h <;> subst h <;> decide
  show ((((c.setWidth 32).toInt : ℝ)) : EReal) = (((c.toNat : ℝ)) : EReal)
  rw [h, Int.cast_natCast]

/-- The indicator as the other program spells it: the piece number plus one (in that order), the bit widened and
    read signed. -/
theorem member_widened (w : BitVec 32) (p : Fin 3) :
    FloatOps.sitofp (F := Ideal) .f32 ((IntOp.cmpi .eq w (IntOp.addi (BitVec.ofNat 32 p.val) 1#32)).setWidth 32)
      = member w p := by
  rw [signed_widened_bit]
  unfold member IntOp.addi
  rw [BitVec.add_comm]

/-- How many positions of a mask row lie in piece `p`. -/
def pieceCount (mrow : Fin 512 → BitVec 32) (p : Fin 3) : Ideal .f32 :=
  ∑ l : Fin 512, member (mrow l) p

/-- The divisor for a piece with `c` positions: `c`, or the fixed small constant when the piece is empty. -/
def pieceLen (c : Ideal .f32) : Ideal .f32 :=
  Scalar.select (FloatOps.cmpf (F := Ideal) .oeq c (FloatOps.ofBits (F := Ideal) .f32 0x00000000#32))
    (FloatOps.ofBits (F := Ideal) .f32 0x3727C5AC#32) c

/-- One entry of the result: the sum of a channel's values over the positions of piece `p`, divided by the
    piece's length. `mrow` is the row of the mask, `xrow` the channel's values along the row. -/
def pieceAvg (mrow : Fin 512 → BitVec 32) (xrow : Fin 512 → Ideal .f32) (p : Fin 3) : Ideal .f32 :=
  Ideal.div (∑ l : Fin 512, member (mrow l) p * xrow l) (pieceLen (pieceCount mrow p))

/-- The row, piece and channel of a result index. -/
def rowOf (j : (⟨2, ![512, 768]⟩ : Shape).Idx) : Fin 512 := ⟨(j 0).val, (j 0).isLt⟩
def pieceOf (j : (⟨2, ![512, 768]⟩ : Shape).Idx) : Fin 3 :=
  ⟨(j 1).val / 256, by have h : (j 1).val < 768 := (j 1).isLt; omega⟩
def chanOf (j : (⟨2, ![512, 768]⟩ : Shape).Idx) : Fin 256 := ⟨(j 1).val % 256, Nat.mod_lt _ (by decide)⟩

/-- THE RESULT ARRAY as one function of the argument arrays, index by index. -/
def pooled (x : (⟨3, ![512, 256, 512]⟩ : Shape).Idx → Ideal .f32) (mask : (⟨2, ![512, 512]⟩ : Shape).Idx → BitVec 32) :
    (⟨2, ![512, 768]⟩ : Shape).Idx → Ideal .f32 :=
  fun j => pieceAvg (fun l => mask (ix2 (rowOf j) l)) (fun l => x (ix3 (rowOf j) (chanOf j) l)) (pieceOf j)

end Cert.PiecePool

end
-- ==== Proof.RefPool.lean ====
/-
  The reference program computes `Cert.PiecePool.pooled`.

  Its operations, read one at a time at an index (the generated read-at-an-index lemmas), give: the one-hot array
  at (b, p, l) is the indicator `member (mask b l) p`; its sum over l, onto the zero initial value, is
  `pieceCount` of the mask's row b; the `where` on "the count is zero" is `pieceLen`; the contraction over l of the one-hot array
  with `x` at (b, p, i) is the sum of `member (mask b l) p · x b i l`; their quotient at (b, p, i) is `pieceAvg`; and the
  final reshape [512, 3, 256] → [512, 768] reads result index (b, q) at (b, q / 256, q % 256) — the row, piece
  and channel of the specification. Each step needs only the index arithmetic of the layout operations between
  the stages, stated below as equations between index functions.
-/
import proofs.«169846_j64304250355852_2_alg».proof.Proof.RefRead
import proofs.«169846_j64304250355852_2_alg».proof.Proof.PiecePool

noncomputable section

namespace Cert.ReferenceIdeal.RefPool

open Cert.ReferenceIdeal Cert.ReferenceIdeal.ReadP Idealize.ShloMosaic Idealize.ShloMosaic.ValueIdx Cert.PiecePool

variable (x0 : (⟨S512x256x512, .f32⟩ : BufTy).Contents (Elt Ideal)) (x1 : (⟨S512x512, .i32⟩ : BufTy).Contents (Elt Ideal))

/-- The mask word the one-hot array's entry (b, p, l) compares: the mask at (b, l). -/
theorem mask_index (b : Fin 512) (p : Fin 3) (l : Fin 512) : idx_main_v0 (idx_main_v5 (ix3 b p l)) = ix2 b l :=
  funext fun a => Fin.ext (by match a with | ⟨0, _⟩ => rfl | ⟨1, _⟩ => rfl)

/-- The one-hot array at (b, p, l) is the indicator that position l of row b lies in piece p. -/
theorem onehot_apply (b : Fin 512) (p : Fin 3) (l : Fin 512) :
    val_main_v8 (F := Ideal) x1 (ix3 b p l) = member (x1 (ix2 b l)) p := by
  rw [val_main_v8_apply, val_main_v7_apply, val_main_v5_apply, val_main_v0_apply, val_main_v6_apply, val_main_v4_apply,
    val_main_v3_apply, val_main_v2_apply, val_main_c_apply, val_main_v1_apply, mask_index]
  rfl

/-- Its sum along the positions, at (b, p), is the number of positions of row b in piece p. -/
theorem count_apply (b : Fin 512) (p : Fin 3) :
    val_main_v9 (F := Ideal) x1 (ix2 b p) = pieceCount (fun l => x1 (ix2 b l)) p := by
  rw [val_main_v9_apply, val_main_cst_apply]
  show Ideal.ofBits .f32 0x00000000#32 + _ = _
  rw [Ideal.ofBits_zero_f32, zero_add]
  unfold pieceCount
  refine Finset.sum_congr rfl fun l _ => ?_
  rw [show idx_main_v9 (ix2 b p) l = ix3 b p l from
    funext fun a => Fin.ext (by match a with | ⟨0, _⟩ => rfl | ⟨1, _⟩ => rfl | ⟨2, _⟩ => rfl)]
  exact onehot_apply x1 b p l

/-- The `where` that replaces an empty piece's count, at (b, p, 0), is `pieceLen` of the count. -/
theorem len_apply (b : Fin 512) (p : Fin 3) (z : Fin 1) :
    val_main_v13 (F := Ideal) x1 (ix3 b p z) = pieceLen (pieceCount (fun l => x1 (ix2 b l)) p) := by
  rw [val_main_v13_apply, val_main_v12_apply, val_main_call0_v0_apply, val_main_cst_1_apply, val_main_v11_apply,
    val_main_cst_0_apply, val_main_v10_apply,
    show idx_main_v10 (ix3 b p z) = ix2 b p from
      funext fun a => Fin.ext (by match a with | ⟨0, _⟩ => rfl | ⟨1, _⟩ => rfl),
    count_apply]
  rfl

/-- The contraction over the positions, at (b, p, i): the values of channel i of row b summed over piece p. -/
theorem dot_apply (b : Fin 512) (p : Fin 3) (i : Fin 256) :
    val_main_v14 (F := Ideal) x0 x1 (ix3 b p i) = ∑ l : Fin 512, member (x1 (ix2 b l)) p * x0 (ix3 b i l) := by
  rw [val_main_v14_apply]
  refine Finset.sum_congr rfl fun l _ => ?_
  rw [show lidx_main_v14 (ix3 b p i) l = ix3 b p l from
      funext fun a => Fin.ext (by match a with | ⟨0, _⟩ => rfl | ⟨1, _⟩ => rfl | ⟨2, _⟩ => rfl),
    show ridx_main_v14 (ix3 b p i) l = ix3 b i l from
      funext fun a => Fin.ext (by match a with | ⟨0, _⟩ => rfl | ⟨1, _⟩ => rfl | ⟨2, _⟩ => rfl),
    onehot_apply]

/-- The reshape reads result index j at (row, piece, channel) of j. -/
theorem reshape_index (j : S512x768.Idx) : idx_main_v17 j = ix3 (rowOf j) (pieceOf j) (chanOf j) :=
  funext fun a => Fin.ext (by
    have h0 : (j 0).val < 512 := (j 0).isLt
    have h1 : (j 1).val < 768 := (j 1).isLt
    match a with
    | ⟨0, _⟩ => show ((j 0).val * 768 + (j 1).val) / 768 = (j 0).val; omega
    | ⟨1, _⟩ => show ((j 0).val * 768 + (j 1).val) / 256 % 3 = (j 1).val / 256; omega
    | ⟨2, _⟩ => show ((j 0).val * 768 + (j 1).val) % 256 = (j 1).val % 256; omega)

/-- THE REFERENCE'S RESULT is the specification's function of the two arguments. -/
theorem result_eq : val_main_v17 (F := Ideal) x0 x1 = pooled x0 x1 := by
  funext j
  rw [val_main_v17_apply, val_main_v16_apply, val_main_v15_apply, reshape_index, dot_apply,
    show idx_main_v15 (ix3 (rowOf j) (pieceOf j) (chanOf j)) = ix3 (rowOf j) (pieceOf j) (0 : Fin 1) from
      funext fun a => Fin.ext (by match a with | ⟨0, _⟩ => rfl | ⟨1, _⟩ => rfl | ⟨2, _⟩ => rfl),
    len_apply]
  rfl

end Cert.ReferenceIdeal.RefPool

end
-- ==== Proof.BlockPool.lean ====
/-
  What the kernel's body computes on one block, read at an index.

  A grid point's body loads a block of 32 rows of the mask (`P0`, indexed (b, l)) and the same 32 rows of `x`
  (`P1`, indexed (b, i, l)), and computes one array indexed (b, p, i): the quotient of
    · the contraction over l of the one-hot array [P0 b l = p + 1] with P1 — at (b, p, i) the sum over l of
      `member (P0 b l) p · P1 b i l` (the two roundings to a narrower format on the way in are the identity on
      extended reals, and the product is accumulated onto zero) — by
    · the one-hot array summed over l, with an empty piece's zero replaced: `pieceLen (pieceCount (P0 b ·) p)`, constant in i.
  That is `Cert.PiecePool.pieceAvg` of row b of the block: `block_apply`. The steps: the one-hot array at an index
  (`onehot_apply`: the mask block re-laid [32, 512] → [32, 1, 512] → [32, 3, 512] reads (b, l); the piece numbers
  are the coordinate along the middle axis plus one), its sum along the last axis (`count_apply`), the
  contraction at an index as a sum over the one contracted coordinate (`contract_apply`), and the divisor re-laid
  [32, 3] → [32, 3, 1] → [32, 3, 256] (`divisor_apply`).
-/
import proofs.«169846_j64304250355852_2_alg».proof.Proof.Gen.KernelIdeal.Skeleton
import proofs.«169846_j64304250355852_2_alg».proof.Proof.PiecePool
import Idealize.ShloMosaic.Lib.Pipeline.Value
import Idealize.ShloMosaic.Lib.ValueIdx
import Idealize.ShloMosaic.PureOps.Ideal.Laws

noncomputable section

namespace Cert.KernelIdeal.BlockPool

open Cert.KernelIdeal Cert.KernelIdeal.Gen Idealize.ShloMosaic Idealize.ShloMosaic.ValueIdx Cert.PiecePool

/-- The block's one-hot array: the mask block repeated along a new middle axis of length 3, compared with the
    coordinate along that axis plus one, the comparison's bit converted to a number. -/
def onehot (P0 : IVec S32x512 32) : FVec Ideal S32x3x512 .f32 :=
  sitofp .f32 (extui 32 (cmpi .eq
    (broadcastTo S32x3x512 (shapeCast S32x1x512 P0 shapeCasts_S32x512_S32x1x512) broadcasts_S32x1x512_S32x3x512)
    (addi (iota .tc S32x3x512 32 [1] iota_S32x3x512_d1_w32) (broadcast S32x3x512 1#32))) natLt_1_32)

/-- The repeated mask block at (b, p, l) is the mask block at (b, l). -/
theorem mask_apply (P0 : IVec S32x512 32) (b : Fin 32) (p : Fin 3) (l : Fin 512) :
    broadcastTo S32x3x512 (shapeCast S32x1x512 P0 shapeCasts_S32x512_S32x1x512) broadcasts_S32x1x512_S32x3x512 (ix3 b p l)
      = P0 (ix2 b l) :=
  (broadcastTo_apply _ broadcasts_S32x1x512_S32x3x512 (ix3 b p l) (ix3 b (0 : Fin 1) l) (fun a => by
    match a with
    | ⟨0, _⟩ => show b.val = if (32 : Nat) = 1 then 0 else b.val; rw [if_neg (by decide)]
    | ⟨1, _⟩ => show 0 = if (1 : Nat) = 1 then 0 else p.val; rw [if_pos rfl]
    | ⟨2, _⟩ => show l.val = if (512 : Nat) = 1 then 0 else l.val; rw [if_neg (by decide)])).trans
  (shapeCast_apply P0 shapeCasts_S32x512_S32x1x512 (ix3 b (0 : Fin 1) l) (ix2 b l) (by
    rw [Shape.rowMajor_val_two, Shape.rowMajor_val_three]
    show b.val * 512 + l.val = (b.val * 1 + 0) * 512 + l.val
    omega))

/-- The one-hot array at (b, p, l) is the indicator that position l of the block's row b lies in piece p. -/
theorem onehot_apply (P0 : IVec S32x512 32) (b : Fin 32) (p : Fin 3) (l : Fin 512) :
    onehot P0 (ix3 b p l) = member (P0 (ix2 b l)) p := by
  have e2 : iota .tc S32x3x512 32 [1] iota_S32x3x512_d1_w32 (ix3 b p l) = BitVec.ofNat 32 p.val :=
    iota_single_apply .tc S32x3x512 32 1 iota_S32x3x512_d1_w32 (ix3 b p l)
  show FloatOps.sitofp (F := Ideal) .f32 ((IntOp.cmpi .eq
      (broadcastTo S32x3x512 (shapeCast S32x1x512 P0 shapeCasts_S32x512_S32x1x512) broadcasts_S32x1x512_S32x3x512 (ix3 b p l))
      (IntOp.addi (iota .tc S32x3x512 32 [1] iota_S32x3x512_d1_w32 (ix3 b p l)) 1#32)).setWidth 32) = _
  rw [mask_apply, e2]
  exact member_widened _ p

/-- The one-hot array summed along the positions, at (b, p): how many positions of the block's row b lie in
    piece p. -/
theorem count_apply (P0 : IVec S32x512 32) (hφ : FKind.Formats .f32) (hacc : (0x00000000#32 : BitVec 32) = FKind.add.neutral .f32 hφ)
    (b : Fin 32) (p : Fin 3) :
    multiReduction .add [2] S32x3 (onehot P0) 0x00000000#32 reduces_S32x3x512_S32x3 hφ hacc (ix2 b p)
      = pieceCount (fun l => P0 (ix2 b l)) p := by
  refine (Ideal.multiReduction_add_single (onehot P0) 0x00000000#32 reduces_S32x3x512_S32x3 hφ hacc (ix2 b p)).trans ?_
  show ∑ l : Fin 512, onehot P0 (reduces_S32x3x512_S32x3.lift (ix2 b p) l) = ∑ l : Fin 512, member (P0 (ix2 b l)) p
  refine Finset.sum_congr rfl fun l _ => ?_
  rw [show reduces_S32x3x512_S32x3.lift (ix2 b p) l = ix3 b p l from
    funext fun a => Fin.ext (by match a with | ⟨0, _⟩ => rfl | ⟨1, _⟩ => rfl | ⟨2, _⟩ => rfl)]
  exact onehot_apply P0 b p l

/-! ## The contraction at an index -/

theorem lhs_0 (j : S32x3x256.Idx) (q : dot_S32x3x512_S32x256x512_S32x3x256_2_2_1_1_0_0.contr.Idx) : (dot_S32x3x512_S32x256x512_S32x3x256_2_2_1_1_0_0.lhsIdx j q 0).val = (j 0).val := by
  unfold DotDims.lhsIdx
  rw [dif_pos (show (0 : Fin S32x3x512.rank) ∈ dot_S32x3x512_S32x256x512_S32x3x256_2_2_1_1_0_0.lhsBatch by decide)]
  rfl
theorem lhs_1 (j : S32x3x256.Idx) (q : dot_S32x3x512_S32x256x512_S32x3x256_2_2_1_1_0_0.contr.Idx) : (dot_S32x3x512_S32x256x512_S32x3x256_2_2_1_1_0_0.lhsIdx j q 1).val = (j 1).val := by
  unfold DotDims.lhsIdx
  rw [dif_neg (show ¬(1 : Fin S32x3x512.rank) ∈ dot_S32x3x512_S32x256x512_S32x3x256_2_2_1_1_0_0.lhsBatch by decide),
    dif_pos (show (1 : Fin S32x3x512.rank) ∈ dot_S32x3x512_S32x256x512_S32x3x256_2_2_1_1_0_0.lhsNonContracting by decide)]
  rfl
theorem lhs_2 (j : S32x3x256.Idx) (q : dot_S32x3x512_S32x256x512_S32x3x256_2_2_1_1_0_0.contr.Idx) : (dot_S32x3x512_S32x256x512_S32x3x256_2_2_1_1_0_0.lhsIdx j q 2).val = (q ⟨0, by decide⟩).val :=
  dot_S32x3x512_S32x256x512_S32x3x256_2_2_1_1_0_0.lhsIdx_val_of_single rfl j q
theorem rhs_0 (j : S32x3x256.Idx) (q : dot_S32x3x512_S32x256x512_S32x3x256_2_2_1_1_0_0.contr.Idx) : (dot_S32x3x512_S32x256x512_S32x3x256_2_2_1_1_0_0.rhsIdx j q 0).val = (j 0).val := by
  unfold DotDims.rhsIdx
  rw [dif_pos (show (0 : Fin S32x256x512.rank) ∈ dot_S32x3x512_S32x256x512_S32x3x256_2_2_1_1_0_0.rhsBatch by decide)]
  rfl
theorem rhs_1 (j : S32x3x256.Idx) (q : dot_S32x3x512_S32x256x512_S32x3x256_2_2_1_1_0_0.contr.Idx) : (dot_S32x3x512_S32x256x512_S32x3x256_2_2_1_1_0_0.rhsIdx j q 1).val = (j 2).val := by
  unfold DotDims.rhsIdx
  rw [dif_neg (show ¬(1 : Fin S32x256x512.rank) ∈ dot_S32x3x512_S32x256x512_S32x3x256_2_2_1_1_0_0.rhsBatch by decide),
    dif_pos (show (1 : Fin S32x256x512.rank) ∈ dot_S32x3x512_S32x256x512_S32x3x256_2_2_1_1_0_0.rhsNonContracting by decide)]
  rfl
theorem rhs_2 (j : S32x3x256.Idx) (q : dot_S32x3x512_S32x256x512_S32x3x256_2_2_1_1_0_0.contr.Idx) : (dot_S32x3x512_S32x256x512_S32x3x256_2_2_1_1_0_0.rhsIdx j q 2).val = (q ⟨0, by decide⟩).val :=
  dot_S32x3x512_S32x256x512_S32x3x256_2_2_1_1_0_0.rhsIdx_val_of_single rfl j q

/-- The contraction of an array indexed (b, p, l) with one indexed (b, i, l) over l, rows b paired, accumulated onto
    zero, at (b, p, i): the sum over l of the products. -/
theorem contract_apply (L : FVec Ideal S32x3x512 .bf16) (R : FVec Ideal S32x256x512 .bf16) (b : Fin 32) (p : Fin 3) (i : Fin 256) :
    matmul dot_S32x3x512_S32x256x512_S32x3x256_2_2_1_1_0_0 none L R (constant S32x3x256 .f32 0x00000000#32) (ix3 b p i)
      = ∑ l : Fin 512, L (ix3 b p l) * R (ix3 b i l) := by
  simp only [matmul]
  rw [Ideal.matmul_constant_zero_apply, ← Equiv.sum_comp (contrEquiv1 dot_S32x3x512_S32x256x512_S32x3x256_2_2_1_1_0_0 512 rfl rfl).symm]
  refine Finset.sum_congr rfl fun k _ => ?_
  have hk := contrEquiv1_symm_val dot_S32x3x512_S32x256x512_S32x3x256_2_2_1_1_0_0 512 rfl rfl k
  have el : dot_S32x3x512_S32x256x512_S32x3x256_2_2_1_1_0_0.lhsIdx (ix3 b p i) ((contrEquiv1 dot_S32x3x512_S32x256x512_S32x3x256_2_2_1_1_0_0 512 rfl rfl).symm k) = ix3 b p k := funext fun a => Fin.ext (by
    match a with
    | ⟨0, _⟩ => exact lhs_0 _ _
    | ⟨1, _⟩ => exact lhs_1 _ _
    | ⟨2, _⟩ => exact (lhs_2 _ _).trans hk)
  have er : dot_S32x3x512_S32x256x512_S32x3x256_2_2_1_1_0_0.rhsIdx (ix3 b p i) ((contrEquiv1 dot_S32x3x512_S32x256x512_S32x3x256_2_2_1_1_0_0 512 rfl rfl).symm k) = ix3 b i k := funext fun a => Fin.ext (by
    match a with
    | ⟨0, _⟩ => exact rhs_0 _ _
    | ⟨1, _⟩ => exact rhs_1 _ _
    | ⟨2, _⟩ => exact (rhs_2 _ _).trans hk)
  rw [el, er]

/-! ## The divisor at an index -/

/-- The counts `C` (indexed (b, p)), an empty piece's zero replaced, repeated along a new last axis: at (b, p, i)
    it is `pieceLen` of the count at (b, p). -/
theorem divisor_apply (C : FVec Ideal S32x3 .f32) (b : Fin 32) (p : Fin 3) (i : Fin 256) :
    broadcastTo S32x3x256 (select (cmpf .oeq (shapeCast S32x3x1 C shapeCasts_S32x3_S32x3x1)
        (broadcast S32x3x1 (Scalar.ofBits (F := Ideal) .f32 0x00000000#32)))
      (broadcast S32x3x1 (Scalar.ofBits (F := Ideal) .f32 0x3727C5AC#32))
      (shapeCast S32x3x1 C shapeCasts_S32x3_S32x3x1)) broadcasts_S32x3x1_S32x3x256 (ix3 b p i)
      = pieceLen (C (ix2 b p)) := by
  have e : shapeCast S32x3x1 C shapeCasts_S32x3_S32x3x1 (ix3 b p (0 : Fin 1)) = C (ix2 b p) :=
    shapeCast_apply C shapeCasts_S32x3_S32x3x1 (ix3 b p (0 : Fin 1)) (ix2 b p) (by
      rw [Shape.rowMajor_val_two, Shape.rowMajor_val_three]
      show b.val * 3 + p.val = (b.val * 3 + p.val) * 1 + 0
      omega)
  refine (broadcastTo_apply _ broadcasts_S32x3x1_S32x3x256 (ix3 b p i) (ix3 b p (0 : Fin 1)) (fun a => by
    match a with
    | ⟨0, _⟩ => show b.val = if (32 : Nat) = 1 then 0 else b.val; rw [if_neg (by decide)]
    | ⟨1, _⟩ => show p.val = if (3 : Nat) = 1 then 0 else p.val; rw [if_neg (by decide)]
    | ⟨2, _⟩ => show 0 = if (1 : Nat) = 1 then 0 else i.val; rw [if_pos rfl])).trans ?_
  show Scalar.select (FloatOps.cmpf (F := Ideal) .oeq (shapeCast S32x3x1 C shapeCasts_S32x3_S32x3x1 (ix3 b p (0 : Fin 1)))
      (Scalar.ofBits (F := Ideal) .f32 0x00000000#32)) (Scalar.ofBits (F := Ideal) .f32 0x3727C5AC#32)
      (shapeCast S32x3x1 C shapeCasts_S32x3_S32x3x1 (ix3 b p (0 : Fin 1))) = _
  rw [e]
  rfl

/-! ## The body's value at an index -/

/-- THE BLOCK: what the body computes from the two loaded blocks, at (b, p, i), is the pooling of row b of the
    block at piece p and channel i. -/
theorem block_apply (P0 : Vec Ideal S32x512 .i32) (P1 : Vec Ideal S32x256x512 .f32) (b : Fin 32) (p : Fin 3) (i : Fin 256) :
    k0_pay1 P0 P1 (ix3 b p i) = pieceAvg (fun l => P0 (ix2 b l)) (fun l => P1 (ix3 b i l)) p := by
  refine (congrArg₂ Ideal.div
    (contract_apply (truncf .bf16 (onehot P0) bitsLt_bf16_f32) (truncf .bf16 P1 bitsLt_bf16_f32) b p i)
    (divisor_apply (multiReduction .add [2] S32x3 (onehot P0) 0x00000000#32 reduces_S32x3x512_S32x3 (.inl rfl) rfl) b p i)).trans ?_
  rw [count_apply P0 (.inl rfl) rfl b p]
  unfold pieceAvg
  refine congrArg (fun s => Ideal.div s _) (Finset.sum_congr rfl fun l _ => ?_)
  show onehot P0 (ix3 b p l) * P1 (ix3 b i l) = _
  rw [onehot_apply]

end Cert.KernelIdeal.BlockPool

end
-- ==== Proof.ArrayPool.lean ====
/-
  From blocks to the array: after the run the kernel's result array is `Cert.PiecePool.pooled` of the arguments.

  The grid has 16 points; at point t the output window's block is rows 32·t … 32·t + 31 (all 768 columns) of the
  result, and the two input windows' blocks are the same rows of `x` (all channels and positions) and of `mask` (all
  positions): `index_facts`, decided over the grid. The body leaves in the output block, at (b, q), the value it
  computes from the two input blocks at (b, q / 256, q % 256) (the generated re-laying of its three column stores),
  which is the pooling of row b of the block (`BlockPool.block_apply`); row b of the block at point t is row
  32·t + b of the arrays, so what point t writes back is block t of `pooled` (`flushed_eq`). Every row r of the
  result lies in the block of point r / 32 (`cover`), so the array ends at `pooled` (`final`), and `run` restates the
  generated run with the result array at that function of the arguments.
-/
import proofs.«169846_j64304250355852_2_alg».proof.Proof.Gen.KernelIdeal.Value
import proofs.«169846_j64304250355852_2_alg».proof.Proof.BlockPool
import Idealize.ShloMosaic.Lib.Pipeline.Value

noncomputable section

namespace Cert.KernelIdeal.ArrayPool

open Cert.KernelIdeal Cert.KernelIdeal.Gen Idealize.ShloMosaic Idealize.ShloMosaic.TcCoe Idealize.SL.Sem
open Idealize.ShloMosaic.ValueIdx Cert.PiecePool
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The three windows' block indices at point t: block t along the rows, block 0 along every other axis. -/
theorem index_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The pooling of a row depends only on the row's mask, the channel's values and the piece. -/
theorem pieceAvg_congr {mrow mrow' : Fin 512 → BitVec 32} {xrow xrow' : Fin 512 → Ideal .f32} {p p' : Fin 3}
    (h1 : mrow = mrow') (h2 : xrow = xrow') (h3 : p = p') : pieceAvg mrow xrow p = pieceAvg mrow' xrow' p' := by
  subst h1 h2 h3; rfl

/-- `pooled` at an index, spelt out. -/
theorem pooled_apply (x : (⟨3, ![512, 256, 512]⟩ : Shape).Idx → Ideal .f32) (mask : (⟨2, ![512, 512]⟩ : Shape).Idx → BitVec 32)
    (j : (⟨2, ![512, 768]⟩ : Shape).Idx) :
    pooled x mask j = pieceAvg (fun l => mask (ix2 (rowOf j) l)) (fun l => x (ix3 (rowOf j) (chanOf j) l)) (pieceOf j) := rfl

/-- WHAT POINT t WRITES BACK is block t of `pooled` of the argument arrays as the region finds them. -/
theorem flushed_eq (c : Dev nD) (t : Fin cfg0.N) :
    (dats m 0 c).flushed 2 t
      = ((cfg0.win 2).blk t).view.read (Elt Ideal) (pooled (V m c main_arg0) (V m c main_arg1)) := by
  generalize hg : pooled (V m c main_arg0) (V m c main_arg1) = g
  show (cfg0.win 2).cut (grid0.coords t) ((dats m 0 c).after 2 t) = _
  rw [after0_2]
  unfold out0_2
  simp only [View.ld_unit_zero (S := S32x512) zeros2, View.ld_unit_zero (S := S32x256x512) zeros3]
  obtain ⟨e00, e01, e02, e10, e11, e20, e21⟩ := index_facts t
  funext y
  have hy0 : (y 0).val < 32 := (y 0).isLt
  have hy1 : (y 1).val < 768 := (y 1).isLt
  -- the block index (b, q) as row b, piece q / 256, channel q % 256
  have hb : ∃ b : Fin 32, b.val = (y 0).val := ⟨⟨(y 0).val, hy0⟩, rfl⟩
  have hp : ∃ p : Fin 3, p.val = (y 1).val / 256 := ⟨⟨(y 1).val / 256, by omega⟩, rfl⟩
  have hi : ∃ i : Fin 256, i.val = (y 1).val % 256 := ⟨⟨(y 1).val % 256, by omega⟩, rfl⟩
  obtain ⟨b, hb⟩ := hb
  obtain ⟨p, hp⟩ := hp
  obtain ⟨i, hi⟩ := hi
  refine (Value.canon2_eq (F := Ideal) (iblk m c 1 t) (iblk m c 0 t) (fun a => ⟨(y a).val, (y a).isLt⟩)).trans ?_
  refine (congrArg (k0_pay1 (F := Ideal) (iblk m c 1 t) (iblk m c 0 t))
    (show Value.ix2_0 (fun a => ⟨(y a).val, (y a).isLt⟩) = ix3 b p i from funext fun a => Fin.ext (by
      match a with
      | ⟨0, _⟩ => exact hb.symm
      | ⟨1, _⟩ => exact hp.symm
      | ⟨2, _⟩ => exact hi.symm))).trans ?_
  refine (BlockPool.block_apply (iblk m c 1 t) (iblk m c 0 t) b p i).trans ?_
  show _ = g (((cfg0.win 2).blk t).view.emb y)
  rw [← hg, pooled_apply]
  refine pieceAvg_congr (funext fun l => ?_) (funext fun l => ?_) (Fin.ext ?_)
  · show V m c main_arg1 (((cfg0.win 1).blk t).view.emb (ix2 b l)) = V m c main_arg1 _
    refine congrArg (V m c main_arg1) (funext fun a => Fin.ext ?_)
    match a with
    | ⟨0, _⟩ =>
      show win0_1.index t (0 : Fin 2) * 32 + 1 * b.val = win0_2.index t (0 : Fin 2) * 32 + 1 * (y 0).val
      omega
    | ⟨1, _⟩ =>
      show win0_1.index t (1 : Fin 2) * 512 + 1 * l.val = l.val
      omega
  · show V m c main_arg0 (((cfg0.win 0).blk t).view.emb (ix3 b i l)) = V m c main_arg0 _
    refine congrArg (V m c main_arg0) (funext fun a => Fin.ext ?_)
    match a with
    | ⟨0, _⟩ =>
      show win0_0.index t (0 : Fin 3) * 32 + 1 * b.val = win0_2.index t (0 : Fin 2) * 32 + 1 * (y 0).val
      omega
    | ⟨1, _⟩ =>
      show win0_0.index t (1 : Fin 3) * 256 + 1 * i.val = (win0_2.index t (1 : Fin 2) * 768 + 1 * (y 1).val) % 256
      omega
    | ⟨2, _⟩ =>
      show win0_0.index t (2 : Fin 3) * 512 + 1 * l.val = l.val
      omega
  · show p.val = (win0_2.index t (1 : Fin 2) * 768 + 1 * (y 1).val) / 256
    omega

/-- An index of the result array is in point t's block iff each coordinate is in the block's range on its axis. -/
theorem mem_block (t : Fin cfg0.N) (i : S512x768.Idx) :
    i ∈ ((cfg0.win 2).blk t).view.set ↔ ∀ a : Fin 2, win0_2.index t a * S32x768.size a ≤ (i a).val
      ∧ (i a).val < win0_2.index t a * S32x768.size a + S32x768.size a := by
  show i ∈ ((View.whole main_v0).slice (win0_2.rect t)).set ↔ _
  rw [View.set_slice_whole, Rect.mem_set_unit]
  exact Iff.rfl

/-- Every index of the result array lies in the block of the point its row belongs to. -/
theorem cover (i : S512x768.Idx) :
    ∃ t : Fin cfg0.N, (cfg0.win 2).flush t = true ∧ i ∈ ((cfg0.win 2).blk t).view.set := by
  have hi0 : (i 0).val < 512 := (i 0).isLt
  have hi1 : (i 1).val < 768 := (i 1).isLt
  have hN : grid0.N = 16 := N_0
  obtain ⟨t, ht⟩ : ∃ t : Fin cfg0.N, t.val = (i 0).val / 32 := ⟨⟨(i 0).val / 32, by show (i 0).val / 32 < grid0.N; omega⟩, rfl⟩
  obtain ⟨e00, e01, e02, e10, e11, e20, e21⟩ := index_facts t
  refine ⟨t, flush0_2 t, ?_⟩
  rw [mem_block]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 768 ≤ (i 1).val ∧ (i 1).val < win0_2.index t (1 : Fin 2) * 768 + 768
    omega

/-- THE RESULT ARRAY after the run is `pooled` of the two argument arrays. -/
theorem final (c : Dev nD) :
    (dats m 0 c).arrAt 2 cfg0.N
      = pooled (m ((c : Thread nD τ).loc main_arg0)) (m ((c : Thread nD τ).loc main_arg1)) :=
  (dats m 0 c).arrAt_eq_of_cover 2 (pooled (V m c main_arg0) (V m c main_arg1)) (fun t _ => flushed_eq m c t) cover

/-- The run, read: the result array at `pooled` of the arguments, the arguments unchanged. -/
theorem run : θ_run defs (onTc (τ := τ) (main (F := Ideal))) ⟨m, fun _ => 0, ρ⟩ fun r => ∀ c : Dev nD,
      r.2.mem ((c : Thread nD τ).loc main_v0)
        = pooled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayPool

end
-- ==== Proof.lean ====
/-
  The certificate of the piecewise average pooling kernel against its reference.

  Both programs take an array `x` (512 rows × 256 channels × 512 positions) and an integer array `mask`
  (512 rows × 512 positions) and return, for each row, each of three pieces and each channel, the sum of the channel's
  values over the positions whose mask word names the piece, divided by the number of those positions (a fixed small
  constant when there are none), laid out as 512 × 768 with the piece the slower of the two merged axes:
  `Cert.PiecePool.pooled` (Proof/PiecePool.lean).

  · The reference computes it on whole arrays: a one-hot array, its sum along the positions, the contraction of the
    one-hot array with `x` over the positions, the quotient, a reshape (Proof/RefPool.lean, over the reference's run
    read one operation at a time).
  · The kernel computes it 32 rows at a time on a grid of 16 points: the same one-hot array of the block, its sum
    along the positions, the same contraction as a matrix product accumulated onto zero (of operands rounded to a
    narrower format, which on extended reals is no change), the quotient, stored as three column blocks
    (Proof/BlockPool.lean: the block's value at an index; Proof/ArrayPool.lean: block t of the result is rows
    32·t … 32·t + 31, and the blocks cover the array).
  Both sides form each sum over the same index set with the factors in the same order, so no law of the extended
  reals beyond reading the operations at an index is needed, and the precondition (finite inputs) is never opened.

  The three frames are the generated ones (the reference's is its run with the result dropped); the idealization
  rewrote no operation, so `preserves` is `True`.
-/
import proofs.«169846_j64304250355852_2_alg».proof.Defs
import proofs.«169846_j64304250355852_2_alg».proof.Proof.Gen.Kernel
import proofs.«169846_j64304250355852_2_alg».proof.Proof.Gen.Kernel.Skeleton
import proofs.«169846_j64304250355852_2_alg».proof.Proof.Gen.Kernel.Launch
import proofs.«169846_j64304250355852_2_alg».proof.Proof.Gen.Kernel.Points
import proofs.«169846_j64304250355852_2_alg».proof.Proof.Gen.Kernel.Frame
import proofs.«169846_j64304250355852_2_alg».proof.Proof.Gen.KernelIdeal
import proofs.«169846_j64304250355852_2_alg».proof.Proof.Gen.KernelIdeal.Skeleton
import proofs.«169846_j64304250355852_2_alg».proof.Proof.Gen.KernelIdeal.Launch
import proofs.«169846_j64304250355852_2_alg».proof.Proof.Gen.KernelIdeal.Points
import proofs.«169846_j64304250355852_2_alg».proof.Proof.Gen.KernelIdeal.Frame
import proofs.«169846_j64304250355852_2_alg».proof.Proof.Gen.ReferenceIdeal
import proofs.«169846_j64304250355852_2_alg».proof.Proof.Gen.Pre_finite_inputs
import proofs.«169846_j64304250355852_2_alg».proof.Proof.Gen.KernelIdeal.Value
import proofs.«169846_j64304250355852_2_alg».proof.Proof.RefRun
import proofs.«169846_j64304250355852_2_alg».proof.Proof.RefRead
import proofs.«169846_j64304250355852_2_alg».proof.Proof.RefPool
import proofs.«169846_j64304250355852_2_alg».proof.Proof.ArrayPool
import Idealize.ShloMosaic.Adequacy
import Idealize.ShloMosaic.Init

noncomputable section

namespace Cert.Proof

open Idealize.ShloMosaic Idealize.SL.Sem

/-- The kernel as printed runs, and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Over the extended reals, from memories that agree on `x` and `mask`, both programs end with the result array at
    `pooled x mask`: the kernel's by its blocks (`ArrayPool.run`), the reference's by its operations read at an
    index (`RefPool.result_eq`). -/
theorem algebraic : Cert.algebraic_KernelIdeal_ReferenceIdeal := by
  intro m ρ m' ρ' _ hagree
  refine ⟨fun c => Cert.PiecePool.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayPool.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v17_eq, Cert.ReferenceIdeal.RefPool.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
